-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1000000 : Shape := ⟨1, ![1000000]⟩
abbrev S512x64 : Shape := ⟨2, ![512, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : IVec S1000000 32) (main_arg2 : IVec S1000000 32) (main_arg3 : IVec S1000000 32) (main_arg4 : FVec F S1000000 .f32) (main_arg5 : FVec F S512x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1000000 .f32 := Host.absf main_arg4
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S512x64 .f32 := Host.absf main_arg5
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_v13 main_v16
-- ==== Kernel.lean ====
abbrev S50000x64 : Shape := ⟨2, ![50000, 64]⟩
abbrev S1000000 : Shape := ⟨1, ![1000000]⟩
abbrev S512x64 : Shape := ⟨2, ![512, 64]⟩
abbrev S64 : Shape := ⟨1, ![64]⟩
abbrev S64x64 : Shape := ⟨2, ![64, 64]⟩
abbrev S_ : Shape := ⟨0, ![]⟩
abbrev S400000 : Shape := ⟨1, ![400000]⟩
abbrev S1000000x1 : Shape := ⟨2, ![1000000, 1]⟩
abbrev S1000000x64 : Shape := ⟨2, ![1000000, 64]⟩
abbrev S400000x64 : Shape := ⟨2, ![400000, 64]⟩
abbrev S50000x512 : Shape := ⟨2, ![50000, 512]⟩
abbrev S2000x512 : Shape := ⟨2, ![2000, 512]⟩
abbrev S2000x64 : Shape := ⟨2, ![2000, 64]⟩
abbrev S1x64 : Shape := ⟨2, ![1, 64]⟩

abbrev nBuf : Space → Nat
  | .hbm => 45
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S1000000, .i32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S512x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S_, .f32⟩
  | .hbm, ⟨14, _⟩ => ⟨S400000, .f32⟩
  | .hbm, ⟨15, _⟩ => ⟨S1000000x1, .i32⟩
  | .hbm, ⟨16, _⟩ => ⟨S400000, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000, .f32⟩
  | .hbm, ⟨26, _⟩ => ⟨S1000000, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S1000000x1, .f32⟩
  | .hbm, ⟨37, _⟩ => ⟨S1000000x64, .f32⟩
  | .hbm, ⟨38, _⟩ => ⟨S1000000x64, .f32⟩
  | .hbm, ⟨39, _⟩ => ⟨S_, .f32⟩
  | .hbm, ⟨40, _⟩ => ⟨S400000x64, .f32⟩
  | .hbm, ⟨41, _⟩ => ⟨S1000000x1, .i32⟩
  | .hbm, ⟨42, _⟩ => ⟨S400000x64, .f32⟩
  | .hbm, ⟨43, _⟩ => ⟨S50000x512, .f32⟩
  | .hbm, ⟨44, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S2000x64, .f32⟩
  | .local _ .vmem, ⟨3, _⟩ => ⟨S2000x64, .f32⟩
  | .local _ .vmem, ⟨4, _⟩ => ⟨S512x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S2000x64, .f32⟩
  | .local _ .vmem, ⟨9, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1000000 : S_.BroadcastsInDim S1000000 (![] : Fin 0 → Fin S1000000.rank)
  bcast_S_S400000 : S_.BroadcastsInDim S400000 (![] : Fin 0 → Fin S400000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S400000x64 : S_.BroadcastsInDim S400000x64 (![] : Fin 0 → Fin S400000x64.rank)
  shapeCasts_S400000x64_S50000x512 : S400000x64.ShapeCasts S50000x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  scatter_S400000_S1000000x1_S1000000_n_0_0_1_wf : ScatterDims.WF S400000 S1000000x1 S1000000 [] [0] [0] 1
  gather_S400000_S1000000x1_S1000000_n_0_n_n_0_1_1_wf : GatherDims.WF S400000 S1000000x1 S1000000 [] [0] [] [0] [] 1 ![1]
  gather_S50000x64_S1000000x1_S1000000x64_1_0_n_n_0_1_164_wf : GatherDims.WF S50000x64 S1000000x1 S1000000x64 [1] [0] [] [0] [] 1 ![1, 64]
  scatter_S400000x64_S1000000x1_S1000000x64_1_0_0_1_wf : ScatterDims.WF S400000x64 S1000000x1 S1000000x64 [1] [0] [0] 1
  dot_S2000x512_S512x64_S2000x64_1_0_0_1_n_n_wf : DotDims.WF S2000x512 S512x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)

variable [Facts₀]

def scatter_S400000_S1000000x1_S1000000_n_0_0_1 : ScatterDims S400000 S1000000x1 S1000000 where
  updateWindowDims := []
  insertedWindowDims := [0]
  scatterDimsToOperandDims := [0]
  indexVectorDim := 1
  wf := scatter_S400000_S1000000x1_S1000000_n_0_0_1_wf
def gather_S400000_S1000000x1_S1000000_n_0_n_n_0_1_1 : GatherDims S400000 S1000000x1 S1000000 where
  offsetDims := []
  collapsedSliceDims := [0]
  operandBatchingDims := []
  startIndicesBatchingDims := []
  startIndexMap := [0]
  indexVectorDim := 1
  sliceSizes := ![1]
  wf := gather_S400000_S1000000x1_S1000000_n_0_n_n_0_1_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v27) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S1000000 : Shape := ⟨1, ![1000000]⟩
abbrev S512x64 : Shape := ⟨2, ![512, 64]⟩
abbrev S64 : Shape := ⟨1, ![64]⟩
abbrev S64x64 : Shape := ⟨2, ![64, 64]⟩
abbrev S_ : Shape := ⟨0, ![]⟩
abbrev S400000 : Shape := ⟨1, ![400000]⟩
abbrev S1000000x1 : Shape := ⟨2, ![1000000, 1]⟩
abbrev S1000000x64 : Shape := ⟨2, ![1000000, 64]⟩
abbrev S400000x64 : Shape := ⟨2, ![400000, 64]⟩
abbrev S50000x512 : Shape := ⟨2, ![50000, 512]⟩
abbrev S1x64 : Shape := ⟨2, ![1, 64]⟩

abbrev nBuf : Space → Nat
  | .hbm => 56
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1000000, .i32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S512x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S_, .f32⟩
  | .hbm, ⟨14, _⟩ => ⟨S400000, .f32⟩
  | .hbm, ⟨15, _⟩ => ⟨S1000000x1, .i32⟩
  | .hbm, ⟨16, _⟩ => ⟨S400000, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000, .f32⟩
  | .hbm, ⟨26, _⟩ => ⟨S1000000, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S1000000x1, .f32⟩
  | .hbm, ⟨37, _⟩ => ⟨S1000000x64, .f32⟩
  | .hbm, ⟨38, _⟩ => ⟨S1000000x64, .f32⟩
  | .hbm, ⟨39, _⟩ => ⟨S_, .f32⟩
  | .hbm, ⟨40, _⟩ => ⟨S400000x64, .f32⟩
  | .hbm, ⟨41, _⟩ => ⟨S1000000x1, .i32⟩
  | .hbm, ⟨42, _⟩ => ⟨S400000x64, .f32⟩
  | .hbm, ⟨43, _⟩ => ⟨S50000x512, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000x64, .f32⟩
  | .hbm, ⟨55, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S400000 : S_.BroadcastsInDim S400000 (![] : Fin 0 → Fin S400000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S400000x64 : S_.BroadcastsInDim S400000x64 (![] : Fin 0 → Fin S400000x64.rank)
  shapeCasts_S400000x64_S50000x512 : S400000x64.ShapeCasts S50000x512
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S400000_S1000000x1_S1000000_n_0_0_1_wf : ScatterDims.WF S400000 S1000000x1 S1000000 [] [0] [0] 1
  gather_S400000_S1000000x1_S1000000_n_0_n_n_0_1_1_wf : GatherDims.WF S400000 S1000000x1 S1000000 [] [0] [] [0] [] 1 ![1]
  gather_S50000x64_S1000000x1_S1000000x64_1_0_n_n_0_1_164_wf : GatherDims.WF S50000x64 S1000000x1 S1000000x64 [1] [0] [] [0] [] 1 ![1, 64]
  scatter_S400000x64_S1000000x1_S1000000x64_1_0_0_1_wf : ScatterDims.WF S400000x64 S1000000x1 S1000000x64 [1] [0] [0] 1
  dot_S50000x512_S512x64_S50000x64_1_0_0_1_n_n_wf : DotDims.WF S50000x512 S512x64 S50000x64 [1] [0] [0] [1] [] []
  dot_S50000x64_S64x64_S50000x64_1_0_0_1_n_n_wf : DotDims.WF S50000x64 S64x64 S50000x64 [1] [0] [0] [1] [] []

variable [Facts₀]

def scatter_S400000_S1000000x1_S1000000_n_0_0_1 : ScatterDims S400000 S1000000x1 S1000000 where
  updateWindowDims := []
  insertedWindowDims := [0]
  scatterDimsToOperandDims := [0]
  indexVectorDim := 1
  wf := scatter_S400000_S1000000x1_S1000000_n_0_0_1_wf
def gather_S400000_S1000000x1_S1000000_n_0_n_n_0_1_1 : GatherDims S400000 S1000000x1 S1000000 where
  offsetDims := []
  collapsedSliceDims := [0]
  operandBatchingDims := []
  startIndicesBatchingDims := []
  startIndexMap := [0]
  indexVectorDim := 1
  sliceSizes := ![1]
  wf := gather_S400000_S1000000x1_S1000000_n_0_n_n_0_1_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S400000x64_S1000000x1_S1000000x64_1_0_0_1 : ScatterDims S400000x64 S1000000x1 S1000000x64 where
  updateWindowDims := [1]
  insertedWindowDims := [0]
  scatterDimsToOperandDims := [0]
  indexVectorDim := 1
  wf := scatter_S400000x64_S1000000x1_S1000000x64_1_0_0_1_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.KernelTile.lean ====
/-
  What the kernel body stores for one tile of 2000 nodes, entry by entry.

  The body loads a tile `u` of aggregated rows ([2000, 512]), the matching tile `x` of node features ([2000, 64]), the
  two weight matrices and the two bias vectors whole, and stores

      max( u · wl  +  x · ws  +  broadcast (bl + bs),  0 )

  over the tile. The roundings to bf16 on the way into the two products are the identity on the extended reals, each
  product into the zero accumulator is the plain sum over its contracted axis, the bias row `[1, 64]` broadcast over
  the 2000 rows reads its one row, and the rectifier is `max` with the zero word. So at row `p` and channel `q` of the
  tile the stored value is  max( Σₖ u(p,k)·wl(k,q) + Σₖ x(p,k)·ws(k,q) + (bl(q) + bs(q)), 0 ).
-/
import proofs.«158907_j7645041787183_1_alg».proof.Proof.Gen.KernelIdeal.Skeleton
import proofs.«158907_j7645041787183_1_alg».proof.Proof.LibMatmulRowsByCols
import Idealize.ShloMosaic.Lib.ValueLayout

noncomputable section

namespace Cert.KernelIdeal.Tile

open Cert.KernelIdeal Cert.KernelIdeal.Gen Idealize.ShloMosaic Idealize.ShloMosaic.ValueIdx

/-! ## Which operand entries the two products read

Both products contract the left operand's second axis with the right operand's first and have no batch axis: at
output entry `(p, q)` and contraction index `k` they read the left operand at `(p, k)` and the right at `(k, q)`. -/

theorem aggregated_lhs0 (j : S2000x64.Idx) (q : dot_S2000x512_S512x64_S2000x64_1_0_0_1_n_n.contr.Idx) : (dot_S2000x512_S512x64_S2000x64_1_0_0_1_n_n.lhsIdx j q 0).val = (j 0).val := by
  unfold DotDims.lhsIdx
  rw [dif_neg (show ¬(0 : Fin S2000x512.rank) ∈ dot_S2000x512_S512x64_S2000x64_1_0_0_1_n_n.lhsBatch by decide),
    dif_pos (show (0 : Fin S2000x512.rank) ∈ dot_S2000x512_S512x64_S2000x64_1_0_0_1_n_n.lhsNonContracting by decide)]
  rfl
theorem aggregated_lhs1 (j : S2000x64.Idx) (q : dot_S2000x512_S512x64_S2000x64_1_0_0_1_n_n.contr.Idx) : (dot_S2000x512_S512x64_S2000x64_1_0_0_1_n_n.lhsIdx j q 1).val = (q ⟨0, by decide⟩).val :=
  dot_S2000x512_S512x64_S2000x64_1_0_0_1_n_n.lhsIdx_val_of_single rfl j q
theorem aggregated_rhs0 (j : S2000x64.Idx) (q : dot_S2000x512_S512x64_S2000x64_1_0_0_1_n_n.contr.Idx) : (dot_S2000x512_S512x64_S2000x64_1_0_0_1_n_n.rhsIdx j q 0).val = (q ⟨0, by decide⟩).val :=
  dot_S2000x512_S512x64_S2000x64_1_0_0_1_n_n.rhsIdx_val_of_single rfl j q
theorem aggregated_rhs1 (j : S2000x64.Idx) (q : dot_S2000x512_S512x64_S2000x64_1_0_0_1_n_n.contr.Idx) : (dot_S2000x512_S512x64_S2000x64_1_0_0_1_n_n.rhsIdx j q 1).val = (j 1).val := by
  unfold DotDims.rhsIdx
  rw [dif_neg (show ¬(1 : Fin S512x64.rank) ∈ dot_S2000x512_S512x64_S2000x64_1_0_0_1_n_n.rhsBatch by decide),
    dif_pos (show (1 : Fin S512x64.rank) ∈ dot_S2000x512_S512x64_S2000x64_1_0_0_1_n_n.rhsNonContracting by decide)]
  rfl

theorem self_lhs0 (j : S2000x64.Idx) (q : dot_S2000x64_S64x64_S2000x64_1_0_0_1_n_n.contr.Idx) : (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
theorem self_lhs1 (j : S2000x64.Idx) (q : dot_S2000x64_S64x64_S2000x64_1_0_0_1_n_n.contr.Idx) : (dot_S2000x64_S64x64_S2000x64_1_0_0_1_n_n.lhsIdx j q 1).val = (q ⟨0, by decide⟩).val :=
  dot_S2000x64_S64x64_S2000x64_1_0_0_1_n_n.lhsIdx_val_of_single rfl j q
theorem self_rhs0 (j : S2000x64.Idx) (q : dot_S2000x64_S64x64_S2000x64_1_0_0_1_n_n.contr.Idx) : (dot_S2000x64_S64x64_S2000x64_1_0_0_1_n_n.rhsIdx j q 0).val = (q ⟨0, by decide⟩).val :=
  dot_S2000x64_S64x64_S2000x64_1_0_0_1_n_n.rhsIdx_val_of_single rfl j q
theorem self_rhs1 (j : S2000x64.Idx) (q : dot_S2000x64_S64x64_S2000x64_1_0_0_1_n_n.contr.Idx) : (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-! ## The stored tile at an entry -/

/-- The stored value at row `p`, channel `q` of the tile: the two exact products' sums, plus the two biases, rectified. -/
theorem stored_entry (u : Vec Ideal S2000x512 .f32) (wl : Vec Ideal S512x64 .f32) (x : Vec Ideal S2000x64 .f32)
    (ws : Vec Ideal S64x64 .f32) (bl bs : Vec Ideal S64 .f32) (p : Fin 2000) (q : Fin 64) :
    k0_pay1 u wl x ws bl bs (ix2 p q)
      = max ((∑ k : Fin 512, u (ix2 p k) * wl (ix2 k q)) + (∑ k : Fin 64, x (ix2 p k) * ws (ix2 k q))
          + (bl (ix1 q) + bs (ix1 q))) (Ideal.ofBits .f32 0x00000000#32) := by
  unfold k0_pay1
  refine congrArg₂ max (congrArg₂ (· + ·) (congrArg₂ (· + ·) ?_ ?_) ?_) rfl
  · refine (MatmulRowsByCols.matmul_zero_apply dot_S2000x512_S512x64_S2000x64_1_0_0_1_n_n rfl rfl
      aggregated_lhs0 aggregated_lhs1 aggregated_rhs0 aggregated_rhs1 none _ _ p q).trans ?_
    exact Finset.sum_congr rfl fun k _ => congrArg₂ (· * ·) (congrFun (shapeCast_self u _) _) rfl
  · exact MatmulRowsByCols.matmul_zero_apply dot_S2000x64_S64x64_S2000x64_1_0_0_1_n_n rfl rfl
      self_lhs0 self_lhs1 self_rhs0 self_rhs1 none _ _ p q
  · refine (broadcastTo_1b_ab_apply _ _ p q).trans ?_
    exact congrArg₂ (· + ·) (shapeCast_a_1a_apply bl _ 0 q) (shapeCast_a_1a_apply bs _ 0 q)

end Cert.KernelIdeal.Tile

end
-- ==== Proof.CombineSpec.lean ====
/-
  The dense stage of a relational graph convolution, as one function of its arrays.

  A node `p` of the graph carries its features `x(p, ·)` (64 numbers) and, for each of the eight relations, the
  degree-normalised sum of its neighbours' features, laid side by side in one row `u(p, ·)` of 8 · 64 = 512 numbers.
  The layer applies one linear map to the aggregated row and another to the node's own features, adds the two biases
  and rectifies:

      out(p, q) = max( Σₖ u(p, k) · wl(k, q)  +  Σₖ x(p, k) · ws(k, q)  +  (bl(q) + bs(q)),  z )

  with `z` the zero the rectifier compares against (kept as a parameter: both programs spell it by the same word, so
  its value is never needed). Everything is on the extended reals: sums and products are exact, so the only law that
  relates two ways of writing the layer is the commutative-monoid law of `+`, which holds at the infinities too;
  no finiteness is needed anywhere.
-/
import Idealize.ShloMosaic.PureOps.Ideal
import Idealize.ShloMosaic.Lib.ValueIdx

noncomputable section

namespace Cert.GraphConvCombine

open Idealize.ShloMosaic Idealize.ShloMosaic.ValueIdx

/-- The layer's entry for node `p` and output channel `q`. -/
def entry (z : EReal) (u : (⟨2, ![50000, 512]⟩ : Shape).Idx → EReal) (x : (⟨2, ![50000, 64]⟩ : Shape).Idx → EReal)
    (wl : (⟨2, ![512, 64]⟩ : Shape).Idx → EReal) (bl : (⟨1, ![64]⟩ : Shape).Idx → EReal)
    (ws : (⟨2, ![64, 64]⟩ : Shape).Idx → EReal) (bs : (⟨1, ![64]⟩ : Shape).Idx → EReal)
    (p : Fin 50000) (q : Fin 64) : EReal :=
  max ((∑ k : Fin 512, u (ix2 p k) * wl (ix2 k q)) + (∑ k : Fin 64, x (ix2 p k) * ws (ix2 k q))
    + (bl (ix1 q) + bs (ix1 q))) z

/-- The layer's whole output, index by index. -/
def layer (z : EReal) (u : (⟨2, ![50000, 512]⟩ : Shape).Idx → EReal) (x : (⟨2, ![50000, 64]⟩ : Shape).Idx → EReal)
    (wl : (⟨2, ![512, 64]⟩ : Shape).Idx → EReal) (bl : (⟨1, ![64]⟩ : Shape).Idx → EReal)
    (ws : (⟨2, ![64, 64]⟩ : Shape).Idx → EReal) (bs : (⟨1, ![64]⟩ : Shape).Idx → EReal) :
    (⟨2, ![50000, 64]⟩ : Shape).Idx → EReal :=
  fun i => entry z u x wl bl ws bs (i 0) (i 1)

theorem layer_ix2 (z : EReal) (u : (⟨2, ![50000, 512]⟩ : Shape).Idx → EReal) (x : (⟨2, ![50000, 64]⟩ : Shape).Idx → EReal)
    (wl : (⟨2, ![512, 64]⟩ : Shape).Idx → EReal) (bl : (⟨1, ![64]⟩ : Shape).Idx → EReal)
    (ws : (⟨2, ![64, 64]⟩ : Shape).Idx → EReal) (bs : (⟨1, ![64]⟩ : Shape).Idx → EReal) (p : Fin 50000) (q : Fin 64) :
    layer z u x wl bl ws bs (ix2 p q) = entry z u x wl bl ws bs p q := rfl

/-- The layer of equal arrays: each array replaced by an equal one. -/
theorem layer_congr {z : EReal} {u u' : (⟨2, ![50000, 512]⟩ : Shape).Idx → EReal} {x x' : (⟨2, ![50000, 64]⟩ : Shape).Idx → EReal}
    {wl wl' : (⟨2, ![512, 64]⟩ : Shape).Idx → EReal} {bl bl' : (⟨1, ![64]⟩ : Shape).Idx → EReal}
    {ws ws' : (⟨2, ![64, 64]⟩ : Shape).Idx → EReal} {bs bs' : (⟨1, ![64]⟩ : Shape).Idx → EReal}
    (hu : u = u') (hx : x = x') (hwl : wl = wl') (hbl : bl = bl') (hws : ws = ws') (hbs : bs = bs') :
    layer z u x wl bl ws bs = layer z u' x' wl' bl' ws' bs' := by
  subst hu hx hwl hbl hws hbs
  rfl

/-- Adding each bias as soon as its own product is formed, `((a + b₁) + c) + b₂`, is adding the two products and then the
    summed biases, `(a + c) + (b₁ + b₂)`: associativity and commutativity of `+` alone. -/
theorem bias_regroup {M : Type*} [AddCommSemigroup M] (a b₁ c b₂ : M) : a + b₁ + c + b₂ = a + c + (b₁ + b₂) := by
  rw [add_assoc (a + b₁) c b₂, add_add_add_comm]

/-- The layer's entry written with each bias added right after its product. -/
theorem entry_eq_biased (z : EReal) (u : (⟨2, ![50000, 512]⟩ : Shape).Idx → EReal) (x : (⟨2, ![50000, 64]⟩ : Shape).Idx → EReal)
    (wl : (⟨2, ![512, 64]⟩ : Shape).Idx → EReal) (bl : (⟨1, ![64]⟩ : Shape).Idx → EReal)
    (ws : (⟨2, ![64, 64]⟩ : Shape).Idx → EReal) (bs : (⟨1, ![64]⟩ : Shape).Idx → EReal) (p : Fin 50000) (q : Fin 64) :
    max ((∑ k : Fin 512, u (ix2 p k) * wl (ix2 k q)) + bl (ix1 q) + (∑ k : Fin 64, x (ix2 p k) * ws (ix2 k q))
      + bs (ix1 q)) z = entry z u x wl bl ws bs p q := by
  unfold entry
  rw [bias_regroup]

end Cert.GraphConvCombine

end
-- ==== Proof.KernelWhole.lean ====
/-
  From tiles to the whole output array.

  The grid has 25 points; point `t` works on nodes `2000 t … 2000 t + 1999`: it is handed rows `2000 t …` of the
  aggregated array and of the node features, the two weight matrices and the two bias vectors whole, and writes back
  rows `2000 t …` of the output. An output entry depends only on its own node's two rows, so the tile a point stores
  is the layer's output restricted to the point's rows (the layer is local to a row), and since the 25 row ranges fill
  `0 … 49999` (node `r` is in the tile of point `r / 2000`) the output array ends holding the layer of the whole
  arrays.
-/
import proofs.«158907_j7645041787183_1_alg».proof.Proof.Gen.KernelIdeal.Value
import proofs.«158907_j7645041787183_1_alg».proof.Proof.KernelTile
import proofs.«158907_j7645041787183_1_alg».proof.Proof.CombineSpec
import Idealize.ShloMosaic.Lib.Pipeline.Value

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.GraphConvCombine Idealize.ShloMosaic.ValueIdx

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The printed index maps over the grid: the aggregated rows, the node features and the output move together, one
    tile of rows per point; the weights and biases stay at their one block. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `p` of point `t`'s tile is node `2000 t + p`. -/
theorem node_lt (t : Fin cfg0.N) (p : Fin 2000) : t.val * 2000 + p.val < 50000 := by
  have ht : t.val < 25 := lt_of_lt_of_eq t.isLt N_0
  have hp := p.isLt
  omega

/-- The layer over the arrays as the region finds them. -/
abbrev result (c : Dev nD) : S50000x64.Idx → EReal :=
  layer (Ideal.ofBits .f32 0x00000000#32) (V m c main_v27) (V m c main_arg0) (V m c main_arg5) (V m c main_arg6)
    (V m c main_arg7) (V m c main_arg8)

/-! ## Each input tile as entries of its array

The block of an array that a window hands to point `t`, read at coordinates inside the block, is the array read at
the block's offset plus those coordinates. Stated for an arbitrary array of each window's shape. -/

theorem rows512_read (t : Fin cfg0.N) (p : Fin 2000) (k : Fin 512) (A : S50000x512.Idx → EReal) :
    (((cfg0.win 0).blk t).view.read (Elt Ideal) A : Vec Ideal S2000x512 .f32) (ix2 p k)
      = A (ix2 ⟨t.val * 2000 + p.val, node_lt t p⟩ k) := by
  have e : ((cfg0.win 0).blk t).view.emb (ix2 p k) = (ix2 ⟨t.val * 2000 + p.val, node_lt t p⟩ k : S50000x512.Idx) :=
    funext fun a => Fin.ext (by
      match a with
      | ⟨0, _⟩ => show win0_0.index t (0 : Fin 2) * 2000 + 1 * p.val = t.val * 2000 + p.val; rw [(tile_index t).1]; omega
      | ⟨1, _⟩ => show win0_0.index t (1 : Fin 2) * 512 + 1 * k.val = k.val; rw [(tile_index t).2.1]; omega)
  show A (((cfg0.win 0).blk t).view.emb (ix2 p k)) = _
  rw [e]

theorem rows64_read (t : Fin cfg0.N) (p : Fin 2000) (k : Fin 64) (A : S50000x64.Idx → EReal) :
    (((cfg0.win 1).blk t).view.read (Elt Ideal) A : Vec Ideal S2000x64 .f32) (ix2 p k)
      = A (ix2 ⟨t.val * 2000 + p.val, node_lt t p⟩ k) := by
  have e : ((cfg0.win 1).blk t).view.emb (ix2 p k) = (ix2 ⟨t.val * 2000 + p.val, node_lt t p⟩ k : S50000x64.Idx) :=
    funext fun a => Fin.ext (by
      match a with
      | ⟨0, _⟩ => show win0_1.index t (0 : Fin 2) * 2000 + 1 * p.val = t.val * 2000 + p.val; rw [(tile_index t).2.2.1]; omega
      | ⟨1, _⟩ => show win0_1.index t (1 : Fin 2) * 64 + 1 * k.val = k.val; rw [(tile_index t).2.2.2.1]; omega)
  show A (((cfg0.win 1).blk t).view.emb (ix2 p k)) = _
  rw [e]

theorem weights512_read (t : Fin cfg0.N) (k : Fin 512) (q : Fin 64) (A : S512x64.Idx → EReal) :
    (((cfg0.win 2).blk t).view.read (Elt Ideal) A : Vec Ideal S512x64 .f32) (ix2 k q) = A (ix2 k q) := by
  have e : ((cfg0.win 2).blk t).view.emb (ix2 k q) = (ix2 k q : S512x64.Idx) :=
    funext fun a => Fin.ext (by
      match a with
      | ⟨0, _⟩ => show win0_2.index t (0 : Fin 2) * 512 + 1 * k.val = k.val; rw [(tile_index t).2.2.2.2.1]; omega
      | ⟨1, _⟩ => show win0_2.index t (1 : Fin 2) * 64 + 1 * q.val = q.val; rw [(tile_index t).2.2.2.2.2.1]; omega)
  show A (((cfg0.win 2).blk t).view.emb (ix2 k q)) = _
  rw [e]

theorem bias3_read (t : Fin cfg0.N) (q : Fin 64) (A : S64.Idx → EReal) :
    (((cfg0.win 3).blk t).view.read (Elt Ideal) A : Vec Ideal S64 .f32) (ix1 q) = A (ix1 q) := by
  have e : ((cfg0.win 3).blk t).view.emb (ix1 q) = (ix1 q : S64.Idx) :=
    funext fun a => Fin.ext (by
      match a with
      | ⟨0, _⟩ => show win0_3.index t (0 : Fin 1) * 64 + 1 * q.val = q.val; rw [(tile_index t).2.2.2.2.2.2.1]; omega)
  show A (((cfg0.win 3).blk t).view.emb (ix1 q)) = _
  rw [e]

theorem weights64_read (t : Fin cfg0.N) (k : Fin 64) (q : Fin 64) (A : S64x64.Idx → EReal) :
    (((cfg0.win 4).blk t).view.read (Elt Ideal) A : Vec Ideal S64x64 .f32) (ix2 k q) = A (ix2 k q) := by
  have e : ((cfg0.win 4).blk t).view.emb (ix2 k q) = (ix2 k q : S64x64.Idx) :=
    funext fun a => Fin.ext (by
      match a with
      | ⟨0, _⟩ => show win0_4.index t (0 : Fin 2) * 64 + 1 * k.val = k.val; rw [(tile_index t).2.2.2.2.2.2.2.1]; omega
      | ⟨1, _⟩ => show win0_4.index t (1 : Fin 2) * 64 + 1 * q.val = q.val; rw [(tile_index t).2.2.2.2.2.2.2.2.1]; omega)
  show A (((cfg0.win 4).blk t).view.emb (ix2 k q)) = _
  rw [e]

theorem bias5_read (t : Fin cfg0.N) (q : Fin 64) (A : S64.Idx → EReal) :
    (((cfg0.win 5).blk t).view.read (Elt Ideal) A : Vec Ideal S64 .f32) (ix1 q) = A (ix1 q) := by
  have e : ((cfg0.win 5).blk t).view.emb (ix1 q) = (ix1 q : S64.Idx) :=
    funext fun a => Fin.ext (by
      match a with
      | ⟨0, _⟩ => show win0_5.index t (0 : Fin 1) * 64 + 1 * q.val = q.val; rw [(tile_index t).2.2.2.2.2.2.2.2.2.1]; omega)
  show A (((cfg0.win 5).blk t).view.emb (ix1 q)) = _
  rw [e]

/-- An output entry of point `t`'s tile sits at node `2000 t + p`. -/
theorem out_emb (t : Fin cfg0.N) (p : Fin 2000) (q : Fin 64) :
    ((cfg0.win 6).blk t).view.emb (ix2 p q) = (ix2 ⟨t.val * 2000 + p.val, node_lt t p⟩ q : S50000x64.Idx) :=
  funext fun a => Fin.ext (by
    match a with
    | ⟨0, _⟩ => show win0_6.index t (0 : Fin 2) * 2000 + 1 * p.val = t.val * 2000 + p.val; rw [(tile_index t).2.2.2.2.2.2.2.2.2.2.1]; omega
    | ⟨1, _⟩ => show win0_6.index t (1 : Fin 2) * 64 + 1 * q.val = q.val; rw [(tile_index t).2.2.2.2.2.2.2.2.2.2.2]; omega)

/-! ## What a point stores, for arbitrary arrays -/

/-- For any six arrays of the operands' shapes: what the body leaves of the six tiles read off them at point `t` is
    the layer of the six arrays read through the point's tile of output rows. (A row of the layer's output depends
    only on the same row of the aggregated array and of the features.) -/
theorem tile_is_layer (t : Fin cfg0.N) (u : S50000x512.Idx → EReal) (x : S50000x64.Idx → EReal) (wl : S512x64.Idx → EReal)
    (bl : S64.Idx → EReal) (ws : S64x64.Idx → EReal) (bs : S64.Idx → EReal) :
    (cfg0.win 6).cut (grid0.coords t)
        (out0_6 (((cfg0.win 0).blk t).view.read (Elt Ideal) u) (((cfg0.win 1).blk t).view.read (Elt Ideal) x)
          (((cfg0.win 2).blk t).view.read (Elt Ideal) wl) (((cfg0.win 3).blk t).view.read (Elt Ideal) bl)
          (((cfg0.win 4).blk t).view.read (Elt Ideal) ws) (((cfg0.win 5).blk t).view.read (Elt Ideal) bs))
      = ((cfg0.win 6).blk t).view.read (Elt Ideal) (layer (Ideal.ofBits .f32 0x00000000#32) u x wl bl ws bs) := by
  unfold out0_6
  rw [View.canon_unit_zero origin2]
  simp only [View.ld_unit_zero (S := S2000x512) origin2, View.ld_unit_zero (S := S512x64) origin2,
    View.ld_unit_zero (S := S2000x64) origin2, View.ld_unit_zero (S := S64x64) origin2, View.ld_unit_zero (S := S64) origin1]
  funext y
  obtain ⟨p, q, rfl⟩ : ∃ (p : Fin 2000) (q : Fin 64), y = ix2 p q := ⟨y 0, y 1, eq_ix2 y⟩
  show k0_pay1 (((cfg0.win 0).blk t).view.read (Elt Ideal) u) (((cfg0.win 2).blk t).view.read (Elt Ideal) wl)
      (((cfg0.win 1).blk t).view.read (Elt Ideal) x) (((cfg0.win 4).blk t).view.read (Elt Ideal) ws)
      (((cfg0.win 3).blk t).view.read (Elt Ideal) bl) (((cfg0.win 5).blk t).view.read (Elt Ideal) bs) (ix2 p q)
    = layer (Ideal.ofBits .f32 0x00000000#32) u x wl bl ws bs (((cfg0.win 6).blk t).view.emb (ix2 p q))
  rw [out_emb t p q, layer_ix2]
  refine (Tile.stored_entry (((cfg0.win 0).blk t).view.read (Elt Ideal) u) (((cfg0.win 2).blk t).view.read (Elt Ideal) wl)
      (((cfg0.win 1).blk t).view.read (Elt Ideal) x) (((cfg0.win 4).blk t).view.read (Elt Ideal) ws)
      (((cfg0.win 3).blk t).view.read (Elt Ideal) bl) (((cfg0.win 5).blk t).view.read (Elt Ideal) bs) p q).trans ?_
  unfold entry
  refine congrArg₂ max (congrArg₂ (· + ·) (congrArg₂ (· + ·) ?_ ?_) ?_) rfl
  · exact Finset.sum_congr rfl fun k _ => congrArg₂ (· * ·) (rows512_read t p k u) (weights512_read t k q wl)
  · exact Finset.sum_congr rfl fun k _ => congrArg₂ (· * ·) (rows64_read t p k x) (weights64_read t k q ws)
  · exact congrArg₂ (· + ·) (bias3_read t q bl) (bias5_read t q bs)

/-! ## What a point writes back -/

/-- Point `t` writes back the layer's output read through the point's tile of rows: the tiles it is handed are the
    reads of the arrays the launch finds. -/
theorem flushed_eq (c : Dev nD) (t : Fin cfg0.N) :
    (dats m 0 c).flushed 6 t = ((cfg0.win 6).blk t).view.read (Elt Ideal) (result m c) :=
  (Value.flushed6 m c t).trans
    (tile_is_layer t (V m c main_v27) (V m c main_arg0) (V m c main_arg5) (V m c main_arg6) (V m c main_arg7) (V m c main_arg8))

/-! ## The tiles fill the array -/

/-- A node's output row is in point `t`'s tile iff its coordinates are in the tile's ranges. -/
theorem mem_tile (t : Fin cfg0.N) (i : S50000x64.Idx) :
    i ∈ ((cfg0.win 6).blk t).view.set ↔ ∀ a : Fin 2, win0_6.index t a * S2000x64.size a ≤ (i a).val
      ∧ (i a).val < win0_6.index t a * S2000x64.size a + S2000x64.size a := by
  show i ∈ ((View.whole main_v28).slice (win0_6.rect t)).set ↔ _
  rw [View.set_slice_whole, Rect.mem_set_unit]
  exact Iff.rfl

/-- Every output entry is in the tile of the point its node's row range belongs to. -/
theorem covered (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 25 := N_0
  have ht : (i 0).val / 2000 < cfg0.N := by rw [hN]; omega
  refine ⟨⟨(i 0).val / 2000, ht⟩, flush0_6 _, ?_⟩
  rw [mem_tile]
  have e0 := (tile_index ⟨(i 0).val / 2000, ht⟩).2.2.2.2.2.2.2.2.2.2.1
  have e1 := (tile_index ⟨(i 0).val / 2000, ht⟩).2.2.2.2.2.2.2.2.2.2.2
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, ht⟩ (1 : Fin 2) * 64 ≤ (i 1).val
      ∧ (i 1).val < win0_6.index ⟨(i 0).val / 2000, ht⟩ (1 : Fin 2) * 64 + 64
    rw [e1]
    omega

/-- So the output array ends holding the layer of the arrays as the region finds them. -/
theorem final (c : Dev nD) : (dats m 0 c).arrAt 6 cfg0.N = result m c :=
  (dats m 0 c).arrAt_eq_of_cover 6 (result m c) (fun t _ => flushed_eq m c t) covered

/-- The kernel's run, read: the output array at the layer, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.KernelAggregated.lean ====
/-
  The aggregated rows are the same array in both programs.

  Before the dense stage both programs form the aggregated rows by the same operations on the same arguments: the
  segment of an edge is `dst · 8 + rel`; the degree of a segment is the sum of the weights of its edges; an edge's
  weight is divided by its segment's degree; the message of an edge is its source node's feature row times that
  normalised weight; the messages are summed per segment into a [400000, 64] array, which is re-read row-major as
  [50000, 512] — one row of 8 · 64 numbers per node. The kernel's program does this on the host before its one
  launch, so the array the launch finds is that composition of the arguments; written out, it is term for term the
  composition the reference's stage names. Nothing about gathers, scatters or divisions by a zero degree is needed:
  the two sides are one expression. The other arrays the launch reads are arguments, which no host operation writes.
-/
import proofs.«158907_j7645041787183_1_alg».proof.Proof.Gen.KernelIdeal.Frame
import proofs.«158907_j7645041787183_1_alg».proof.Proof.Gen.ReferenceIdeal.Read
import proofs.«158907_j7645041787183_1_alg».proof.Proof.KernelWhole
import Idealize.ShloMosaic.Lib.StableHlo.Run

noncomputable section

open Idealize.ShloMosaic Idealize.ShloMosaic.TcCoe Idealize.SL.Sem Idealize.ShloMosaic.StableHlo

namespace Cert.KernelIdeal.Aggregated

open Cert.KernelIdeal Cert.KernelIdeal.Gen Cert.GraphConvCombine

variable (m : (ℓ : Loc nD τ sig) → Buf (Elt Ideal) ℓ)

/-- The aggregated array the launch finds is the reference's aggregated stage of the same five arguments. -/
theorem aggregated_eq (c : Dev nD) :
    (V m c main_v27 : S50000x512.Idx → EReal)
      = Cert.ReferenceIdeal.Read.val_main_v27 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  dsimp only [Gen.V, Gen.hostOps0]
  after_results_simp
  rfl

/-- The layer over the arrays the launch finds is the layer of the arguments, the aggregated rows spelt as the
    reference's stage. -/
theorem result_eq (c : Dev nD) :
    Whole.result m c
      = layer (Ideal.ofBits .f32 0x00000000#32)
          (Cert.ReferenceIdeal.Read.val_main_v27 (F := Ideal) (m ((c : Thread nD τ).loc main_arg0))
            (m ((c : Thread nD τ).loc main_arg1)) (m ((c : Thread nD τ).loc main_arg2))
            (m ((c : Thread nD τ).loc main_arg3)) (m ((c : Thread nD τ).loc main_arg4)))
          (m ((c : Thread nD τ).loc main_arg0)) (m ((c : Thread nD τ).loc main_arg5))
          (m ((c : Thread nD τ).loc main_arg6)) (m ((c : Thread nD τ).loc main_arg7))
          (m ((c : Thread nD τ).loc main_arg8)) := by
  exact layer_congr (aggregated_eq m c) (V_main_arg0 m c) (V_main_arg5 m c) (V_main_arg6 m c) (V_main_arg7 m c) (V_main_arg8 m c)

end Cert.KernelIdeal.Aggregated

end
-- ==== Proof.ReferenceLayer.lean ====
/-
  The reference's result is the layer.

  After forming the aggregated rows `u` (the reshaped segment sums) the reference computes
  `relu(((u · wl + bl) + x · ws) + bs)`: two `dot_general`s, each bias broadcast over the 50000 rows and added right
  after its product, and a maximum with the zero splat. Read at node `p` and channel `q` on the extended reals, each
  `dot_general` is the sum over its contracted axis and each broadcast bias is the bias at `q`; regrouping the four
  summands (commutativity and associativity of `+`) gives the layer's entry. The aggregated rows stay an opaque array
  throughout: how they were formed plays no part.
-/
import proofs.«158907_j7645041787183_1_alg».proof.Proof.Gen.ReferenceIdeal.Read
import proofs.«158907_j7645041787183_1_alg».proof.Proof.CombineSpec

noncomputable section

namespace Cert.ReferenceIdeal.Layer

open Cert.ReferenceIdeal Cert.ReferenceIdeal.Gen Cert.ReferenceIdeal.Read Cert.GraphConvCombine
open Idealize.ShloMosaic Idealize.ShloMosaic.ValueIdx

/-! ## The operand entries each stage reads, by coordinates -/

theorem aggregated_left (p : Fin 50000) (q : Fin 64) (k : Fin 512) : lidx_main_v28 (ix2 p q) k = ix2 p k :=
  funext fun a => Fin.ext (by match a with | ⟨0, _⟩ => rfl | ⟨1, _⟩ => rfl)
theorem aggregated_right (p : Fin 50000) (q : Fin 64) (k : Fin 512) : ridx_main_v28 (ix2 p q) k = ix2 k q :=
  funext fun a => Fin.ext (by match a with | ⟨0, _⟩ => rfl | ⟨1, _⟩ => rfl)
theorem self_left (p : Fin 50000) (q : Fin 64) (k : Fin 64) : lidx_main_v32 (ix2 p q) k = ix2 p k :=
  funext fun a => Fin.ext (by match a with | ⟨0, _⟩ => rfl | ⟨1, _⟩ => rfl)
theorem self_right (p : Fin 50000) (q : Fin 64) (k : Fin 64) : ridx_main_v32 (ix2 p q) k = ix2 k q :=
  funext fun a => Fin.ext (by match a with | ⟨0, _⟩ => rfl | ⟨1, _⟩ => rfl)
theorem aggregated_bias (p : Fin 50000) (q : Fin 64) : idx_main_v29 (idx_main_v30 (ix2 p q)) = ix1 q :=
  funext fun a => Fin.ext (by match a with | ⟨0, _⟩ => rfl)
theorem self_bias (p : Fin 50000) (q : Fin 64) : idx_main_v34 (idx_main_v35 (ix2 p q)) = ix1 q :=
  funext fun a => Fin.ext (by match a with | ⟨0, _⟩ => rfl)

/-! ## The result -/

/-- The reference's result array is the layer of the aggregated rows, the node features, the weights and the biases. -/
theorem result_is_layer (x0 : (⟨S50000x64, .f32⟩ : BufTy).Contents (Elt Ideal)) (x1 x2 x3 : (⟨S1000000, .i32⟩ : BufTy).Contents (Elt Ideal))
    (x4 : (⟨S1000000, .f32⟩ : BufTy).Contents (Elt Ideal)) (x5 : (⟨S512x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) :
    val_main_v37 (F := Ideal) x0 x1 x2 x3 x4 x5 x6 x7 x8
      = layer (Ideal.ofBits .f32 0x00000000#32) (val_main_v27 (F := Ideal) x0 x1 x2 x3 x4) x0 x5 x6 x7 x8 := by
  funext i
  obtain ⟨p, q, rfl⟩ : ∃ (p : Fin 50000) (q : Fin 64), i = ix2 p q := ⟨i 0, i 1, eq_ix2 i⟩
  rw [layer_ix2, ← entry_eq_biased]
  rw [val_main_v37_apply, val_main_v36_apply, val_main_v33_apply, val_main_v31_apply, val_main_v28_apply, val_main_v32_apply,
    val_main_v30_apply, val_main_v29_apply, val_main_v35_apply, val_main_v34_apply, val_main_call0_v0_apply,
    val_main_call0_cst_apply]
  generalize val_main_v27 (F := Ideal) x0 x1 x2 x3 x4 = u
  simp only [aggregated_left, aggregated_right, self_left, self_right, aggregated_bias, self_bias,
    Ideal.maximumf_def, Ideal.addf_def, Ideal.ofBits_def]

end Cert.ReferenceIdeal.Layer

end
-- ==== Proof.lean ====
/-
  A relational graph convolution: the tiled kernel against the plain reference, on the extended reals.

  Both programs first form, by the same host operations on the same arguments, the aggregated rows `u` (per node and
  relation, the degree-normalised sum of the neighbours' features: one row of 8 · 64 numbers per node). The reference
  then computes `relu(((u · wl + bl) + x · ws) + bs)` over all 50000 nodes at once. The kernel's program cuts the nodes
  into 25 tiles of 2000 and, per tile, computes `max(u · wl + x · ws + (bl + bs), 0)` with the two products fed through
  bf16, which on the extended reals changes nothing.

  An output entry depends only on its node's own rows of `u` and `x`, so a tile's result is the whole layer's result
  on that tile's rows, and the tiles fill the array: the kernel's output array is the layer of the whole arrays
  (KernelTile, KernelWhole). The reference's two `dot_general`s are the same sums and its four summands regroup by
  associativity and commutativity of `+` (ReferenceLayer, CombineSpec). The aggregated rows are one and the same
  expression of the arguments in both programs (KernelAggregated). No finiteness of the inputs is used: every step
  holds at the infinities.

  The three frames: the two kernel programs' runs terminate without a fault and leave the arguments unchanged by the
  frame certificates of their pipelines; the reference's by its run read back. The idealized kernel differs from the
  printed one by no rewrite, so there is nothing to preserve.
-/
import proofs.«158907_j7645041787183_1_alg».proof.Defs
import proofs.«158907_j7645041787183_1_alg».proof.Proof.Gen.Kernel
import proofs.«158907_j7645041787183_1_alg».proof.Proof.Gen.Kernel.Skeleton
import proofs.«158907_j7645041787183_1_alg».proof.Proof.Gen.Kernel.Launch
import proofs.«158907_j7645041787183_1_alg».proof.Proof.Gen.Kernel.Points
import proofs.«158907_j7645041787183_1_alg».proof.Proof.Gen.Kernel.Frame
import proofs.«158907_j7645041787183_1_alg».proof.Proof.Gen.KernelIdeal
import proofs.«158907_j7645041787183_1_alg».proof.Proof.Gen.KernelIdeal.Skeleton
import proofs.«158907_j7645041787183_1_alg».proof.Proof.Gen.KernelIdeal.Launch
import proofs.«158907_j7645041787183_1_alg».proof.Proof.Gen.KernelIdeal.Points
import proofs.«158907_j7645041787183_1_alg».proof.Proof.Gen.KernelIdeal.Frame
import proofs.«158907_j7645041787183_1_alg».proof.Proof.Gen.ReferenceIdeal
import proofs.«158907_j7645041787183_1_alg».proof.Proof.Gen.KernelIdeal.Value
import proofs.«158907_j7645041787183_1_alg».proof.Proof.Gen.ReferenceIdeal.Run
import proofs.«158907_j7645041787183_1_alg».proof.Proof.Gen.ReferenceIdeal.Read
import proofs.«158907_j7645041787183_1_alg».proof.Proof.Gen.Pre_finite_inputs
import proofs.«158907_j7645041787183_1_alg».proof.Proof.KernelWhole
import proofs.«158907_j7645041787183_1_alg».proof.Proof.KernelAggregated
import proofs.«158907_j7645041787183_1_alg».proof.Proof.ReferenceLayer
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the same arrays: the kernel's output array by its tiles, the reference's
    result by its operations read at an index, the aggregated rows one expression of the arguments in both. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v37_eq, Cert.ReferenceIdeal.Layer.result_is_layer, e0, e1, e2, e3, e4, e5, e6, e7, e8]
  exact (Cert.KernelIdeal.Aggregated.result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
